-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16x16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x16 .f32) (main_arg3 : FVec F S128x16 .f32) (main_arg4 : FVec F S16 .f32) (main_arg5 : FVec F S16x16 .f32) (main_arg6 : FVec F S16x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x16 : Shape := ⟨2, ![16, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S5000x128 : Shape := ⟨2, ![5000, 128]⟩
abbrev S5000x16 : Shape := ⟨2, ![5000, 16]⟩
abbrev S1600000x16 : Shape := ⟨2, ![1600000, 16]⟩
abbrev S5000 : Shape := ⟨1, ![5000]⟩
abbrev S5000x1 : Shape := ⟨2, ![5000, 1]⟩

abbrev nBuf : Space → Nat
  | .hbm => 42
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x16, .f32⟩
  | .hbm, ⟨26, _⟩ => ⟨S100000x16, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x16, .f32⟩
  | .hbm, ⟨36, _⟩ => ⟨S_, .f32⟩
  | .hbm, ⟨37, _⟩ => ⟨S100000x16, .f32⟩
  | .hbm, ⟨38, _⟩ => ⟨S1600000x1, .i32⟩
  | .hbm, ⟨39, _⟩ => ⟨S100000x16, .f32⟩
  | .hbm, ⟨40, _⟩ => ⟨S1x16, .f32⟩
  | .hbm, ⟨41, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x16, .f32⟩
  | .local _ .vmem, ⟨5, _⟩ => ⟨S128x16, .f32⟩
  | .local _ .vmem, ⟨6, _⟩ => ⟨S1x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x16, .f32⟩
  | .local _ .vmem, ⟨14, _⟩ => ⟨S16x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  reduces_S5000x16_S5000 : S5000x16.Reduces [1] S5000
  shapeCasts_S5000_S5000x1 : S5000.ShapeCasts S5000x1
  broadcasts_S5000x1_S5000x16 : S5000x1.Broadcasts S5000x16
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x16 : Shape := ⟨2, ![16, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x16 : Shape := ⟨2, ![100000, 16]⟩
abbrev S1x16 : Shape := ⟨2, ![1, 16]⟩
abbrev S1600000x16 : Shape := ⟨2, ![1600000, 16]⟩
abbrev S100000 : Shape := ⟨1, ![100000]⟩
abbrev S100000x1 : Shape := ⟨2, ![100000, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x16, .f32⟩
  | .hbm, ⟨26, _⟩ => ⟨S100000x16, .f32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x16, .f32⟩
  | .hbm, ⟨43, _⟩ => ⟨S_, .f32⟩
  | .hbm, ⟨44, _⟩ => ⟨S100000x16, .f32⟩
  | .hbm, ⟨45, _⟩ => ⟨S1600000x1, .i32⟩
  | .hbm, ⟨46, _⟩ => ⟨S100000x16, .f32⟩
  | .hbm, ⟨47, _⟩ => ⟨S100000x16, .f32⟩
  | .hbm, ⟨48, _⟩ => ⟨S100000x16, .f32⟩
  | .hbm, ⟨49, _⟩ => ⟨S100000x16, .f32⟩
  | .hbm, ⟨50, _⟩ => ⟨S1x16, .f32⟩
  | .hbm, ⟨51, _⟩ => ⟨S100000x16, .f32⟩
  | .hbm, ⟨52, _⟩ => ⟨S100000x16, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x16, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S100000, .f32⟩
  | .hbm, ⟨64, _⟩ => ⟨S100000x1, .f32⟩
  | .hbm, ⟨65, _⟩ => ⟨S100000x1, .f32⟩
  | .hbm, ⟨66, _⟩ => ⟨S100000x16, .f32⟩
  | .hbm, ⟨67, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_call1_cst_0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_cst_1 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_v37 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x16_S100000x16_1_0_0_1_n_n_wf : DotDims.WF S100000x16 S16x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel's run, with its result buffer named.

  The program is four segments: a stretch of host operations, the first kernel's region, a second stretch, the second
  kernel's region.  The contents of the TensorCore's buffers at each boundary are a fold from the launch memory: after
  the first stretch, the operations' results; after a region, its arrays at what its write-backs leave and every other
  buffer as entered; and so on.  Every weakly fair execution terminates with every unscoped buffer at the last
  boundary's contents.  Read at the arguments, those are the launch contents (nothing writes an argument); read at the
  result buffer, they are the second region's output array after its write-backs.
-/
import proofs.«146280_j46265387712704_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last boundary's contents and the arguments as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.RefRun.lean ====
/-
  The reference program's run, read one stretch of host operations at a time.

  The reference is a straight line of sixty host operations.  It falls into four stretches: the first layer up to its
  bias (the neighbour sums of the input features, two matrix products, their sum, the bias), the clamp at zero, the
  second layer up to its bias (the neighbour sums of the hidden features, two matrix products, their sum, the bias),
  and the logarithm of the softmax.  Each stretch is a function of the few buffers it reads: the clamp of the
  pre-activation; the second layer of the two index vectors, the hidden features, two weight matrices and a bias; the
  log-softmax of the logits.  Composed, these functions are the value of the result buffer after the whole line, and
  no operation writes an argument.

  The contents after a concatenation of two lines are the contents after the second line, run from the contents after
  the first (`after_append`); a stretch is read from ANY contents `V`, so that what it reads are atoms.
-/
import proofs.«146280_j46265387712704_1_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The four stretches -/

/-- The first layer up to its bias: 23 operations. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v13 main_arg2 main_v14 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_arg0 main_arg3 main_v15 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v14 main_v15 main_v16 (addf : (⟨S100000x16, .f32⟩ : BufTy).Contents (Elt F) → (⟨S100000x16, .f32⟩ : BufTy).Contents (Elt F) → (⟨S100000x16, .f32⟩ : BufTy).Contents (Elt F)),
    unary main_arg4 main_v17 (broadcastInDim S1x16 ![1] bcast_S16_S1x16_1 : (⟨S16, .f32⟩ : BufTy).Contents (Elt F) → (⟨S1x16, .f32⟩ : BufTy).Contents (Elt F)),
    unary main_v17 main_v18 (broadcastInDim S100000x16 ![0, 1] bcast_S1x16_S100000x16_0_1 : (⟨S1x16, .f32⟩ : BufTy).Contents (Elt F) → (⟨S100000x16, .f32⟩ : BufTy).Contents (Elt F)),
    binary main_v16 main_v18 main_v19 (addf : (⟨S100000x16, .f32⟩ : BufTy).Contents (Elt F) → (⟨S100000x16, .f32⟩ : BufTy).Contents (Elt F) → (⟨S100000x16, .f32⟩ : BufTy).Contents (Elt F)) ]

/-- The clamp at zero: 3 operations. -/
abbrev opsR : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v19) (TRef.of (T := ⟨S100000x16, .f32⟩) main_call0_v0) (TRef.of (T := ⟨S100000x16, .f32⟩) main_v20) maximumf ]

/-- The second layer up to its bias: 19 operations. -/
abbrev opsC : List (HloOp τ sig (Elt F)) :=
  [ nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    nullary main_cst_3 (constant S_ .f32 0x00000000#32),
    unary main_cst_3 main_v28 (broadcastInDim S100000x16 ![] bcast_S_S100000x16 : (⟨S_, .f32⟩ : BufTy).Contents (Elt F) → (⟨S100000x16, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    binary main_v30 main_arg5 main_v31 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v20 main_arg6 main_v32 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v31 main_v32 main_v33 (addf : (⟨S100000x16, .f32⟩ : BufTy).Contents (Elt F) → (⟨S100000x16, .f32⟩ : BufTy).Contents (Elt F) → (⟨S100000x16, .f32⟩ : BufTy).Contents (Elt F)),
    unary main_arg7 main_v34 (broadcastInDim S1x16 ![1] bcast_S16_S1x16_1 : (⟨S16, .f32⟩ : BufTy).Contents (Elt F) → (⟨S1x16, .f32⟩ : BufTy).Contents (Elt F)),
    unary main_v34 main_v35 (broadcastInDim S100000x16 ![0, 1] bcast_S1x16_S100000x16_0_1 : (⟨S1x16, .f32⟩ : BufTy).Contents (Elt F) → (⟨S100000x16, .f32⟩ : BufTy).Contents (Elt F)),
    binary main_v33 main_v35 main_v36 (addf : (⟨S100000x16, .f32⟩ : BufTy).Contents (Elt F) → (⟨S100000x16, .f32⟩ : BufTy).Contents (Elt F) → (⟨S100000x16, .f32⟩ : BufTy).Contents (Elt F)) ]

/-- The logarithm of the softmax: 15 operations. -/
abbrev opsS : List (HloOp τ sig (Elt F)) :=
  [ TRef.nullary (TRef.of (T := ⟨S_, .f32⟩) main_call1_cst) (constant S_ .f32 0xFF800000#32),
    TRef.binary (TRef.of (T := ⟨S100000x16, .f32⟩) main_v36) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v36) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v37) subf ]

/-- The whole line. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v13 main_arg2 main_v14 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_arg0 main_arg3 main_v15 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    binary main_v14 main_v15 main_v16 (addf : (⟨S100000x16, .f32⟩ : BufTy).Contents (Elt F) → (⟨S100000x16, .f32⟩ : BufTy).Contents (Elt F) → (⟨S100000x16, .f32⟩ : BufTy).Contents (Elt F)),
    unary main_arg4 main_v17 (broadcastInDim S1x16 ![1] bcast_S16_S1x16_1 : (⟨S16, .f32⟩ : BufTy).Contents (Elt F) → (⟨S1x16, .f32⟩ : BufTy).Contents (Elt F)),
    unary main_v17 main_v18 (broadcastInDim S100000x16 ![0, 1] bcast_S1x16_S100000x16_0_1 : (⟨S1x16, .f32⟩ : BufTy).Contents (Elt F) → (⟨S100000x16, .f32⟩ : BufTy).Contents (Elt F)),
    binary main_v16 main_v18 main_v19 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v19) (TRef.of (T := ⟨S100000x16, .f32⟩) main_call0_v0) (TRef.of (T := ⟨S100000x16, .f32⟩) main_v20) maximumf,
    nullary main_c_1 (constantI S_ 32 0#32),
    unary main_c_1 main_v21 (broadcastInDim S1600000 ![] bcast_S_S1600000 : (⟨S_, .i32⟩ : BufTy).Contents (Elt F) → (⟨S1600000, .i32⟩ : BufTy).Contents (Elt F)),
    binary main_v1 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v23 (broadcastInDim S1600000 ![] bcast_S_S1600000 : (⟨S_, .i32⟩ : BufTy).Contents (Elt F) → (⟨S1600000, .i32⟩ : BufTy).Contents (Elt F)),
    binary main_v1 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    nullary main_cst_3 (constant S_ .f32 0x00000000#32),
    unary main_cst_3 main_v28 (broadcastInDim S100000x16 ![] bcast_S_S100000x16 : (⟨S_, .f32⟩ : BufTy).Contents (Elt F) → (⟨S100000x16, .f32⟩ : BufTy).Contents (Elt F)),
    unary main_v3 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)),
    binary main_v30 main_arg5 main_v31 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v20 main_arg6 main_v32 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v31 main_v32 main_v33 (addf : (⟨S100000x16, .f32⟩ : BufTy).Contents (Elt F) → (⟨S100000x16, .f32⟩ : BufTy).Contents (Elt F) → (⟨S100000x16, .f32⟩ : BufTy).Contents (Elt F)),
    unary main_arg7 main_v34 (broadcastInDim S1x16 ![1] bcast_S16_S1x16_1 : (⟨S16, .f32⟩ : BufTy).Contents (Elt F) → (⟨S1x16, .f32⟩ : BufTy).Contents (Elt F)),
    unary main_v34 main_v35 (broadcastInDim S100000x16 ![0, 1] bcast_S1x16_S100000x16_0_1 : (⟨S1x16, .f32⟩ : BufTy).Contents (Elt F) → (⟨S100000x16, .f32⟩ : BufTy).Contents (Elt F)),
    binary main_v33 main_v35 main_v36 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0xFF800000#32),
    TRef.binary (TRef.of (T := ⟨S100000x16, .f32⟩) main_v36) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v36) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v37) subf ]

theorem ops_split : (ops : List (HloOp τ sig (Elt F))) = opsA ++ (opsR ++ (opsC ++ opsS)) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of the reference terminates with every buffer at the line's contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## Each stretch as a function of what it reads -/

/-- The clamp: the maximum with the zero array. -/
def clampOf (y : (⟨S100000x16, .f32⟩ : BufTy).Contents (Elt F)) : (⟨S100000x16, .f32⟩ : BufTy).Contents (Elt F) :=
  maximumf y (val_main_call0_v0 (F := F))

/-- The neighbour sums of 16-wide rows `hh`: row `src e` of `hh` (a negative `src e` counted from the end) added into
    row `dst e` of a zero array, for every edge `e`. -/
def nbrSum16 (e1 e3 : (⟨S1600000, .i32⟩ : BufTy).Contents (Elt F)) (hh : (⟨S100000x16, .f32⟩ : BufTy).Contents (Elt F)) :
    (⟨S100000x16, .f32⟩ : BufTy).Contents (Elt F) :=
  Host.scatterAdd scatter_S100000x16_S1600000x1_S1600000x16_1_0_0_1 (val_main_v28 (F := F))
    (broadcastInDim S1600000x1 ![0] bcast_S1600000_S1600000x1_0 e3)
    (Host.gather gather_S100000x16_S1600000x1_S1600000x16_1_0_n_n_0_1_116 hh
      (broadcastInDim S1600000x1 ![0] bcast_S1600000_S1600000x1_0
        (select (cmpi .slt e1 (val_main_v21 (F := F))) (addi e1 (val_main_v23 (F := F))) e1)))

/-- The second layer up to its bias. -/
def layer2Of (e1 e3 : (⟨S1600000, .i32⟩ : BufTy).Contents (Elt F)) (hh : (⟨S100000x16, .f32⟩ : BufTy).Contents (Elt F))
    (x5 x6 : (⟨S16x16, .f32⟩ : BufTy).Contents (Elt F)) (x7 : (⟨S16, .f32⟩ : BufTy).Contents (Elt F)) :
    (⟨S100000x16, .f32⟩ : BufTy).Contents (Elt F) :=
  addf (addf (Host.dotGeneral dot_S100000x16_S16x16_S100000x16_1_0_0_1_n_n none (nbrSum16 e1 e3 hh) x5)
      (Host.dotGeneral dot_S100000x16_S16x16_S100000x16_1_0_0_1_n_n none hh x6)) (val_main_v35 (F := F) x7)

/-- The row maxima of the logits, once more compared with the starting value. -/
def rowMaxOf (y : (⟨S100000x16, .f32⟩ : BufTy).Contents (Elt F)) : (⟨S100000, .f32⟩ : BufTy).Contents (Elt F) :=
  maximumf (val_main_call1_v1 (F := F)) (Host.reduce FloatOps.maximumf y (val_main_call1_cst (F := F)) reducesTo_S100000x16_S100000_d1 h_S_)

/-- The logits shifted by their row maxima. -/
def shiftedOf (y : (⟨S100000x16, .f32⟩ : BufTy).Contents (Elt F)) : (⟨S100000x16, .f32⟩ : BufTy).Contents (Elt F) :=
  subf y (broadcastInDim S100000x16 ![0, 1] bcast_S100000x1_S100000x16_0_1 (broadcastInDim S100000x1 ![0] bcast_S100000_S100000x1_0 (rowMaxOf y)))

/-- The logarithm of the softmax of the logits. -/
def logSoftmaxOf (y : (⟨S100000x16, .f32⟩ : BufTy).Contents (Elt F)) : (⟨S100000x16, .f32⟩ : BufTy).Contents (Elt F) :=
  subf (shiftedOf y) (broadcastInDim S100000x16 ![0, 1] bcast_S100000x1_S100000x16_0_1
    (Host.log (broadcastInDim S100000x1 ![0] bcast_S100000_S100000x1_0
      (Host.reduceAdd (Host.exp (shiftedOf y)) (val_main_call1_cst_1 (F := F)) reducesTo_S100000x16_S100000_d1 h_S_))))

section Reads

variable (V : Valuation τ sig (Elt F))

/-! ### The first stretch -/
theorem readA_pre : after opsA V (Proc.devRef .tc main_v19) = val_main_v19 (F := F) (V (Proc.devRef .tc main_arg0)) (V (Proc.devRef .tc main_arg1)) (V (Proc.devRef .tc main_arg2)) (V (Proc.devRef .tc main_arg3)) (V (Proc.devRef .tc main_arg4)) := by
  after_results_simp <;> rfl
theorem readA_src : after opsA V (Proc.devRef .tc main_v1) = val_main_v1 (F := F) (V (Proc.devRef .tc main_arg1)) := by
  after_results_simp <;> rfl
theorem readA_dst : after opsA V (Proc.devRef .tc main_v3) = val_main_v3 (F := F) (V (Proc.devRef .tc main_arg1)) := by
  after_results_simp <;> rfl
theorem keepA_arg5 : after opsA V (Proc.devRef .tc main_arg5) = (V (Proc.devRef .tc main_arg5)) := by after_results_simp <;> rfl
theorem keepA_arg6 : after opsA V (Proc.devRef .tc main_arg6) = (V (Proc.devRef .tc main_arg6)) := by after_results_simp <;> rfl
theorem keepA_arg7 : after opsA V (Proc.devRef .tc main_arg7) = (V (Proc.devRef .tc main_arg7)) := by after_results_simp <;> rfl

/-! ### The clamp -/
theorem readR : after opsR V (Proc.devRef .tc main_v20) = clampOf (V (Proc.devRef .tc main_v19)) := by
  after_results_simp <;> rfl
theorem keepR_src : after opsR V (Proc.devRef .tc main_v1) = (V (Proc.devRef .tc main_v1)) := by after_results_simp <;> rfl
theorem keepR_dst : after opsR V (Proc.devRef .tc main_v3) = (V (Proc.devRef .tc main_v3)) := by after_results_simp <;> rfl
theorem keepR_arg5 : after opsR V (Proc.devRef .tc main_arg5) = (V (Proc.devRef .tc main_arg5)) := by after_results_simp <;> rfl
theorem keepR_arg6 : after opsR V (Proc.devRef .tc main_arg6) = (V (Proc.devRef .tc main_arg6)) := by after_results_simp <;> rfl
theorem keepR_arg7 : after opsR V (Proc.devRef .tc main_arg7) = (V (Proc.devRef .tc main_arg7)) := by after_results_simp <;> rfl

/-! ### The second stretch -/
theorem readC : after opsC V (Proc.devRef .tc main_v36)
    = layer2Of (V (Proc.devRef .tc main_v1)) (V (Proc.devRef .tc main_v3)) (V (Proc.devRef .tc main_v20)) (V (Proc.devRef .tc main_arg5)) (V (Proc.devRef .tc main_arg6)) (V (Proc.devRef .tc main_arg7)) := by
  after_results_simp <;> rfl

/-! ### The log-softmax -/

/-- Contents moved to a typed reference's buffer and back are unchanged. -/
theorem ofBuf_toBuf {T : BufTy} (x : TRef sig T) (v : T.Contents (Elt F)) : x.ofBuf (x.toBuf v) = v := by
  obtain ⟨r, h, _, _⟩ := x
  subst h
  rfl

attribute [local irreducible] Host.reduce Host.reduceAdd in
theorem readS : after opsS V (Proc.devRef .tc main_v37) = logSoftmaxOf (V (Proc.devRef .tc main_v36)) := by
  after_results_simp
  simp only [ofBuf_toBuf]
  rfl

/-! ### The arguments, through the whole line -/
theorem kept_arg0 : after ops V (Proc.devRef .tc main_arg0) = (V (Proc.devRef .tc main_arg0)) := by after_results_simp <;> rfl
theorem kept_arg1 : after ops V (Proc.devRef .tc main_arg1) = (V (Proc.devRef .tc main_arg1)) := by after_results_simp <;> rfl
theorem kept_arg2 : after ops V (Proc.devRef .tc main_arg2) = (V (Proc.devRef .tc main_arg2)) := by after_results_simp <;> rfl
theorem kept_arg3 : after ops V (Proc.devRef .tc main_arg3) = (V (Proc.devRef .tc main_arg3)) := by after_results_simp <;> rfl
theorem kept_arg4 : after ops V (Proc.devRef .tc main_arg4) = (V (Proc.devRef .tc main_arg4)) := by after_results_simp <;> rfl
theorem kept_arg5 : after ops V (Proc.devRef .tc main_arg5) = (V (Proc.devRef .tc main_arg5)) := by after_results_simp <;> rfl
theorem kept_arg6 : after ops V (Proc.devRef .tc main_arg6) = (V (Proc.devRef .tc main_arg6)) := by after_results_simp <;> rfl
theorem kept_arg7 : after ops V (Proc.devRef .tc main_arg7) = (V (Proc.devRef .tc main_arg7)) := by after_results_simp <;> rfl

end Reads

/-! ## The stage functions are the stages of the generated reading -/

section Stages
variable (x0 : (⟨S100000x128, .f32⟩ : BufTy).Contents (Elt F)) (x1 : (⟨S2x1600000, .i32⟩ : BufTy).Contents (Elt F))
  (x2 x3 : (⟨S128x16, .f32⟩ : BufTy).Contents (Elt F)) (x4 : (⟨S16, .f32⟩ : BufTy).Contents (Elt F))
  (x5 x6 : (⟨S16x16, .f32⟩ : BufTy).Contents (Elt F)) (x7 : (⟨S16, .f32⟩ : BufTy).Contents (Elt F))

theorem hidden_stage : val_main_v20 (F := F) x0 x1 x2 x3 x4 = clampOf (val_main_v19 (F := F) x0 x1 x2 x3 x4) := rfl
theorem nbr_stage : val_main_v30 (F := F) x0 x1 x2 x3 x4
    = nbrSum16 (val_main_v1 (F := F) x1) (val_main_v3 (F := F) x1) (val_main_v20 (F := F) x0 x1 x2 x3 x4) := rfl
theorem logits_stage : val_main_v36 (F := F) x0 x1 x2 x3 x4 x5 x6 x7
    = layer2Of (val_main_v1 (F := F) x1) (val_main_v3 (F := F) x1) (val_main_v20 (F := F) x0 x1 x2 x3 x4) x5 x6 x7 := rfl
theorem result_stage : val_main_v37 (F := F) x0 x1 x2 x3 x4 x5 x6 x7
    = logSoftmaxOf (val_main_v36 (F := F) x0 x1 x2 x3 x4 x5 x6 x7) := rfl

end Stages

/-! ## The result buffer after the whole line -/

/-- The result buffer after the sixty operations is the last stage at the arguments' contents. -/
theorem result_eq (V : Valuation τ sig (Elt F)) :
    after ops V (Proc.devRef .tc main_v37) = val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append, readS, readC, keepR_src, keepR_dst, readR, keepR_arg5, keepR_arg6,
    keepR_arg7, readA_src, readA_dst, readA_pre, keepA_arg5, keepA_arg6, keepA_arg7, result_stage, logits_stage, hidden_stage]

/-- The reference's run: the result at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v37).trans (result_eq (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c))⟩)
    (run_fold m ρ)

end Cert.ReferenceIdeal.RefRun

end
-- ==== Proof.Spec.lean ====
/-
  A two-layer graph convolution, entry by entry over the extended reals.

  One layer takes, for every node `r`, the sum `agg r` of its in-neighbours' feature rows and its own feature row
  `x r`, and returns `agg · W_rel + x · W_root + b`: entry `(r, j)` is the sum over `k` of
  `agg (r, k) · W_rel (k, j)`, plus the sum over `k` of `x (r, k) · W_root (k, j)`, plus `b j` — the two sums are
  added first and the bias last.  The first layer clamps this below at zero.  The second takes the logarithm of the
  softmax along each row, computed from the row shifted by its maximum: with `M r` the maximum of row `r` (a fold of
  `max` over the columns from a starting value), entry `(r, j)` is
  `(o (r, j) − M r) − log (Σ_c exp (o (r, c) − M r))`; it depends on row `r` of `o` only.

  Indices are built from coordinates by `ix2`, so that each definition unfolds at an index `ix2 r j` by `rfl`.
-/
import Idealize.ShloMosaic.Lib.ValueIdx
import Idealize.ShloMosaic.PureOps.Ideal.Laws

noncomputable section

open scoped BigOperators

namespace Cert.GraphConv

open Idealize.ShloMosaic Idealize.ShloMosaic.ValueIdx

/-- An `a × b` array of extended reals. -/
abbrev Arr (a b : ℕ) : Type := (⟨2, ![a, b]⟩ : Shape).Idx → EReal

variable {n d h : ℕ}

/-- One layer before its activation, at node `r` and output feature `j`. -/
def convAt (agg x : Arr n d) (wr wo : Arr d h) (b : Fin h → EReal) (r : Fin n) (j : Fin h) : EReal :=
  (∑ k : Fin d, agg (ix2 r k) * wr (ix2 k j) + ∑ k : Fin d, x (ix2 r k) * wo (ix2 k j)) + b j

/-- The first layer: the convolution clamped below at `z` (the value of the zero word). -/
def hidden (z : EReal) (agg x : Arr n d) (wr wo : Arr d h) (b : Fin h → EReal) : Arr n h :=
  fun i => max (convAt agg x wr wo b (i 0) (i 1)) z

theorem hidden_ix2 (z : EReal) (agg x : Arr n d) (wr wo : Arr d h) (b : Fin h → EReal) (r : Fin n) (j : Fin h) :
    hidden z agg x wr wo b (ix2 r j) = max (convAt agg x wr wo b r j) z := rfl

/-- The maximum of a row, folded from the starting value `s`. -/
def rowMax (s : EReal) (row : Fin h → EReal) : EReal :=
  (Finset.univ : Finset (Fin h)).fold max s row

/-- The logarithm of the softmax of a row at column `j`, by way of the row shifted by its maximum. -/
def logSoftmaxRow (s : EReal) (row : Fin h → EReal) (j : Fin h) : EReal :=
  (row j - rowMax s row) - Ideal.log (∑ c : Fin h, Ideal.exp (row c - rowMax s row))

/-- The second layer: the logarithm of the softmax of the convolution, row by row. -/
def output (s : EReal) (agg x : Arr n d) (wr wo : Arr d h) (b : Fin h → EReal) : Arr n h :=
  fun i => logSoftmaxRow s (convAt agg x wr wo b (i 0)) (i 1)

theorem output_ix2 (s : EReal) (agg x : Arr n d) (wr wo : Arr d h) (b : Fin h → EReal) (r : Fin n) (j : Fin h) :
    output s agg x wr wo b (ix2 r j) = logSoftmaxRow s (convAt agg x wr wo b r) j := rfl

/-- Taking the maximum with the starting value once more changes nothing: the fold is already above it. -/
theorem max_start_rowMax (s : EReal) (row : Fin h → EReal) : max s (rowMax s row) = rowMax s row :=
  max_eq_right ((Finset.le_fold_max s).mpr (Or.inl le_rfl))

end Cert.GraphConv

end
-- ==== Proof.Layer1.lean ====
/-
  What the first kernel leaves in its output array.

  The first kernel runs over twenty grid points.  Point `t` reads rows `5000 t … 5000 t + 4999` of the neighbour
  sums and of the node features, both weight matrices and the bias row whole, and writes rows
  `5000 t … 5000 t + 4999` of the hidden features: at `(p, q)` of its block the product of the block of neighbour sums
  with `W_rel`, plus the product of the block of features with `W_root`, plus the bias at `q`, clamped below at zero.
  A product into a zero accumulator is the sum over `k` of the products of entries; a change of float format is the
  identity on extended reals.  So the block is rows `5000 t …` of the first layer of the whole arrays, the twenty
  blocks tile the array, and the array ends holding the first layer — whatever the buffers hold when the region is
  entered (`V`).
-/
import proofs.«146280_j46265387712704_1_alg».proof.Proof.Gen.KernelIdeal.Frame
import proofs.«146280_j46265387712704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Layer1

open Cert.KernelIdeal Cert.KernelIdeal.Gen Cert.GraphConv

/-- The zero offset of a whole-block access. -/
theorem hz : (![0, 0] : Fin 2 → Nat) = fun _ => 0 := funext fun a => by fin_cases a <;> rfl

/-- The value of the zero word, at which the first layer is clamped. -/
abbrev zeroW : EReal := Ideal.ofBits .f32 0x00000000#32

/-! ## A 5000 × 128 block times a 128 × 16 matrix -/

abbrev D128 : DotDims S5000x128 S128x16 S5000x16 := dot_S5000x128_S128x16_S5000x16_1_0_0_1_n_n

theorem lhs_row (i : S5000x16.Idx) (q : D128.contr.Idx) : (D128.lhsIdx i q 0).val = (i 0).val := by
  unfold DotDims.lhsIdx
  rw [dif_neg (show ¬(0 : Fin S5000x128.rank) ∈ D128.lhsBatch by decide), dif_pos (show (0 : Fin S5000x128.rank) ∈ D128.lhsNonContracting by decide)]
  rfl
theorem rhs_col (i : S5000x16.Idx) (q : D128.contr.Idx) : (D128.rhsIdx i q 1).val = (i 1).val := by
  unfold DotDims.rhsIdx
  rw [dif_neg (show ¬(1 : Fin S128x16.rank) ∈ D128.rhsBatch by decide), dif_pos (show (1 : Fin S128x16.rank) ∈ D128.rhsNonContracting by decide)]
  rfl

/-- The product into a zero accumulator at `(p, q)`: the sum over `k` of `l (p, k) · r (k, q)`. -/
theorem matmul_at {φ₁ φ₂ : FTy} (l : FVec Ideal S5000x128 φ₁) (r : FVec Ideal S128x16 φ₂) (p : Fin 5000) (q : Fin 16) :
    matmul D128 none l r (constant S5000x16 .f32 0x00000000#32) (ix2 p q) = ∑ k : Fin 128, l (ix2 p k) * r (ix2 k q) := by
  show FloatOps.matmul D128 none l r (constant S5000x16 .f32 0x00000000#32) (ix2 p q) = _
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact lhs_row _ _
    | ⟨1, _⟩ => exact (D128.lhsIdx_val_of_single rfl _ _).trans hk)
  have er : D128.rhsIdx (ix2 p q) ((contrEquiv1 D128 128 rfl rfl).symm k) = ix2 k q := funext fun a => Fin.ext (by
    match a with
    | ⟨0, _⟩ => exact (D128.rhsIdx_val_of_single rfl _ _).trans hk
    | ⟨1, _⟩ => exact rhs_col _ _)
  rw [el, er]

/-! ## The body's stored value at an entry of its block -/

/-- The stored value at `(p, q)`: the first layer of the five loaded blocks, the bias read off the one row of its block. -/
theorem pay_at (x0 x1 : Vec Ideal S5000x128 .f32) (x2 x3 : Vec Ideal S128x16 .f32) (x4 : Vec Ideal S1x16 .f32)
    (p : Fin 5000) (q : Fin 16) :
    k0_pay1 x0 x1 x2 x3 x4 (ix2 p q)
      = max (convAt (n := 5000) (d := 128) (h := 16) x0 x1 x2 x3 (fun j => x4 (ix2 (0 : Fin 1) j)) p q) zeroW := by
  unfold k0_pay1
  show max ((matmul (F := Ideal) D128 none (truncf .bf16 (shapeCast S5000x128 x0 _) _) (truncf .bf16 x2 _) (constant S5000x16 .f32 0x00000000#32) (ix2 p q)
      + matmul (F := Ideal) D128 none (truncf .bf16 x1 _) (truncf .bf16 x3 _) (constant S5000x16 .f32 0x00000000#32) (ix2 p q))
      + broadcastTo S5000x16 (shapeCast S1x16 x4 _) _ (ix2 p q)) _ = _
  rw [matmul_at, matmul_at, broadcastTo_1b_ab_apply, shapeCast_self, shapeCast_self]
  rfl

/-! ## The blocks, read off the arrays as the region finds them -/

section Region
variable (V : (c : Dev nD) → (b : Ref sig .tc) → Buf (Elt Ideal) ((c : Thread nD τ).loc b))

/-- The printed index maps over the grid: the two row-tiled inputs and the output are at block row `t`, column 0; the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `(p, k)` of point `t`'s block of the neighbour sums is entry `(5000 t + p, k)` of the array. -/
theorem blk_agg (c : Dev nD) (t : Fin cfg0.N) (p : Fin 5000) (k : Fin 128) (r : Fin 100000) (hr : r.val = 5000 * t.val + p.val) :
    (iblk0 V c 0 t : Vec Ideal S5000x128 .f32) (ix2 p k) = (V c main_v13 : S100000x128.Idx → EReal) (ix2 r k) := by
  obtain ⟨e0, e1, -⟩ := idx_facts t
  unfold iblk0
  rw [View.read_apply]
  show V c main_v13 _ = V c main_v13 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The same for the node features. -/
theorem blk_x (c : Dev nD) (t : Fin cfg0.N) (p : Fin 5000) (k : Fin 128) (r : Fin 100000) (hr : r.val = 5000 * t.val + p.val) :
    (iblk0 V c 1 t : Vec Ideal S5000x128 .f32) (ix2 p k) = (V c main_arg0 : S100000x128.Idx → EReal) (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The block of `W_rel` is the whole matrix. -/
theorem blk_wr (c : Dev nD) (t : Fin cfg0.N) (k : Fin 128) (q : Fin 16) :
    (iblk0 V c 2 t : Vec Ideal S128x16 .f32) (ix2 k q) = (V c main_arg2 : S128x16.Idx → EReal) (ix2 k q) := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t 0 * 128 + 1 * k.val = k.val; rw [e0]; omega
  | ⟨1, _⟩ => show win0_2.index t 1 * 16 + 1 * q.val = q.val; rw [e1]; omega

/-- The block of `W_root` is the whole matrix. -/
theorem blk_wo (c : Dev nD) (t : Fin cfg0.N) (k : Fin 128) (q : Fin 16) :
    (iblk0 V c 3 t : Vec Ideal S128x16 .f32) (ix2 k q) = (V c main_arg3 : S128x16.Idx → EReal) (ix2 k q) := by
  obtain ⟨-, -, -, -, -, -, e0, e1, -⟩ := idx_facts t
  unfold iblk0
  rw [View.read_apply]
  show V c main_arg3 _ = V c main_arg3 _
  congr 1
  funext a
  apply Fin.ext
  match a with
  | ⟨0, _⟩ => show win0_3.index t 0 * 128 + 1 * k.val = k.val; rw [e0]; omega
  | ⟨1, _⟩ => show win0_3.index t 1 * 16 + 1 * q.val = q.val; rw [e1]; omega

/-- The block of the bias row is the whole row. -/
theorem blk_b (c : Dev nD) (t : Fin cfg0.N) (q : Fin 16) :
    (iblk0 V c 4 t : Vec Ideal S1x16 .f32) (ix2 (0 : Fin 1) q) = (V c main_v14 : S1x16.Idx → EReal) (ix2 (0 : Fin 1) q) := by
  obtain ⟨-, -, -, -, -, -, -, -, e0, e1, -⟩ := idx_facts t
  unfold iblk0
  rw [View.read_apply]
  show V c main_v14 _ = V c main_v14 _
  congr 1
  funext a
  apply Fin.ext
  match a with
  | ⟨0, _⟩ => show win0_4.index t 0 * 1 + 1 * 0 = 0; rw [e0]
  | ⟨1, _⟩ => show win0_4.index t 1 * 16 + 1 * q.val = q.val; rw [e1]; omega

/-- The first layer of the arrays as the region finds them. -/
abbrev layer (c : Dev nD) : Arr 100000 16 :=
  hidden zeroW (V c main_v13 : S100000x128.Idx → EReal) (V c main_arg0 : S100000x128.Idx → EReal)
    (V c main_arg2 : S128x16.Idx → EReal) (V c main_arg3 : S128x16.Idx → EReal) (fun j => (V c main_v14 : S1x16.Idx → EReal) (ix2 (0 : Fin 1) j))

/-- WHAT POINT `t` WRITES BACK is rows `5000 t …` of the first layer. -/
theorem flushed_eq (c : Dev nD) (t : Fin cfg0.N) :
    (dat0 V c).flushed 5 t = ((cfg0.win 5).blk t).view.read (Elt Ideal) (layer V c) := by
  have hN : cfg0.N = 20 := N_0
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S5000x128) hz, View.ld_unit_zero (S := S128x16) hz, View.ld_unit_zero (S := S1x16) hz]
  funext y
  obtain ⟨p, q, rfl⟩ : ∃ (p : Fin 5000) (q : Fin 16), y = ix2 p q := ⟨y 0, y 1, eq_ix2 y⟩
  have ht : t.val < 20 := hN ▸ t.isLt
  have hp : p.val < 5000 := p.isLt
  let r : Fin 100000 := ⟨5000 * t.val + p.val, by omega⟩
  have hemb : ((cfg0.win 5).blk t).view.emb (ix2 p q) = ix2 r q := funext fun a => Fin.ext (by
    match a with
    | ⟨0, _⟩ => show win0_5.index t 0 * 5000 + 1 * p.val = 5000 * t.val + p.val; rw [e0]; omega
    | ⟨1, _⟩ => show win0_5.index t 1 * 16 + 1 * q.val = q.val; rw [e1]; omega)
  rw [View.read_apply]
  show k0_pay1 (iblk0 V c 0 t) (iblk0 V c 1 t) (iblk0 V c 2 t) (iblk0 V c 3 t) (iblk0 V c 4 t) (ix2 p q) = layer V c (((cfg0.win 5).blk t).view.emb (ix2 p q))
  refine (pay_at (iblk0 V c 0 t) (iblk0 V c 1 t) (iblk0 V c 2 t) (iblk0 V c 3 t) (iblk0 V c 4 t) p q).trans ?_
  refine Eq.trans ?_ (congrArg (layer V c) hemb).symm
  show max _ zeroW = max (convAt _ _ _ _ _ r q) zeroW
  refine congrArg (max · zeroW) ?_
  unfold convAt
  refine congrArg₂ (· + ·) (congrArg₂ (· + ·) (Finset.sum_congr rfl fun k _ => ?_) (Finset.sum_congr rfl fun k _ => ?_)) ?_
  · exact congrArg₂ (· * ·) (blk_agg V c t p k r rfl) (blk_wr V c t k q)
  · exact congrArg₂ (· * ·) (blk_x V c t p k r rfl) (blk_wo V c t k q)
  · exact blk_b V c t q

/-- An index of the array is in point `t`'s block iff its row is among the block's 5000 rows. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v15).slice (win0_5.rect t)).set ↔ _
  rw [View.set_slice_whole, Rect.mem_set_unit]
  exact Iff.rfl

/-- Row `r` is in the block of point `r / 5000`: the twenty blocks tile the array. -/
theorem cover (i : S100000x16.Idx) : ∃ t : Fin cfg0.N, (cfg0.win 5).flush t = true ∧ i ∈ ((cfg0.win 5).blk t).view.set := by
  have hN : cfg0.N = 20 := N_0
  have h0 : (i 0).val < 100000 := (i 0).isLt
  have h1 : (i 1).val < 16 := (i 1).isLt
  let t : Fin cfg0.N := ⟨(i 0).val / 5000, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0]; show (i 0).val / 5000 * 5000 ≤ (i 0).val ∧ (i 0).val < (i 0).val / 5000 * 5000 + 5000; omega
  | ⟨1, _⟩ =>
    show win0_5.index t 1 * 16 ≤ (i 1).val ∧ (i 1).val < win0_5.index t 1 * 16 + 16
    rw [e1]; omega

/-- THE ARRAY of hidden features after the region: the first layer of the arrays as the region finds them. -/
theorem final (c : Dev nD) : (dat0 V c).arrAt 5 cfg0.N = layer V c :=
  (dat0 V c).arrAt_eq_of_cover 5 (layer V c) (fun t _ => flushed_eq V c t) cover

end Region

end Cert.KernelIdeal.Layer1

end
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.Layer2.lean ====
/-
  What the second kernel leaves in its output array.

  The second kernel runs over twenty grid points.  Point `t` reads rows `5000 t … 5000 t + 4999` of the neighbour
  sums of the hidden features and of the hidden features themselves, both 16 × 16 weight matrices and the bias row
  whole, and writes rows `5000 t …` of the result.  Its block of logits is, at `(p, c)`, the product of the block of
  neighbour sums with `W_rel`, plus the product of the block of hidden features with `W_root`, plus the bias at `c`.
  From the logits `o` it takes the row maxima `M p` (a lane maximum started from its accumulator word), shifts each
  row by its maximum, and subtracts the logarithm of the row's sum of exponentials of the shifted entries:
  `(o (p, q) − M p) − log (Σ_c exp (o (p, c) − M p))`.  That depends on row `p` of the logits only, so the block is
  rows `5000 t …` of the second layer of the whole arrays; the twenty blocks tile the array, which therefore ends
  holding the second layer — whatever the buffers hold when the region is entered (`V`).
-/
import proofs.«146280_j46265387712704_1_alg».proof.Proof.Gen.KernelIdeal.Frame
import proofs.«146280_j46265387712704_1_alg».proof.Proof.Spec
import proofs.«146280_j46265387712704_1_alg».proof.Proof.LibRowMax
import proofs.«146280_j46265387712704_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Layer2

open Cert.KernelIdeal Cert.KernelIdeal.Gen Cert.GraphConv

/-- The zero offset of a whole-block access. -/
theorem hz : (![0, 0] : Fin 2 → Nat) = fun _ => 0 := funext fun a => by fin_cases a <;> rfl

/-- The value of the word the row maxima start from. -/
abbrev startW : EReal := Ideal.ofBits .f32 0xFF800000#32

/-! ## A 5000 × 16 block times a 16 × 16 matrix -/

abbrev D16 : DotDims S5000x16 S16x16 S5000x16 := dot_S5000x16_S16x16_S5000x16_1_0_0_1_n_n

theorem lhs_row (i : S5000x16.Idx) (q : D16.contr.Idx) : (D16.lhsIdx i q 0).val = (i 0).val := by
  unfold DotDims.lhsIdx
  rw [dif_neg (show ¬(0 : Fin S5000x16.rank) ∈ D16.lhsBatch by decide), dif_pos (show (0 : Fin S5000x16.rank) ∈ D16.lhsNonContracting by decide)]
  rfl
theorem rhs_col (i : S5000x16.Idx) (q : D16.contr.Idx) : (D16.rhsIdx i q 1).val = (i 1).val := by
  unfold DotDims.rhsIdx
  rw [dif_neg (show ¬(1 : Fin S16x16.rank) ∈ D16.rhsBatch by decide), dif_pos (show (1 : Fin S16x16.rank) ∈ D16.rhsNonContracting by decide)]
  rfl

/-- The product into a zero accumulator at `(p, q)`: the sum over `k` of `l (p, k) · r (k, q)`. -/
theorem matmul_at {φ₁ φ₂ : FTy} (l : FVec Ideal S5000x16 φ₁) (r : FVec Ideal S16x16 φ₂) (p : Fin 5000) (q : Fin 16) :
    matmul D16 none l r (constant S5000x16 .f32 0x00000000#32) (ix2 p q) = ∑ k : Fin 16, l (ix2 p k) * r (ix2 k q) := by
  show FloatOps.matmul D16 none l r (constant S5000x16 .f32 0x00000000#32) (ix2 p q) = _
  rw [Ideal.matmul_constant_zero_apply, ← Equiv.sum_comp (contrEquiv1 D16 16 rfl rfl).symm]
  refine Finset.sum_congr rfl fun k _ => ?_
  have hk := contrEquiv1_symm_val D16 16 rfl rfl k
  have el : D16.lhsIdx (ix2 p q) ((contrEquiv1 D16 16 rfl rfl).symm k) = ix2 p k := funext fun a => Fin.ext (by
    match a with
    | ⟨0, _⟩ => exact lhs_row _ _
    | ⟨1, _⟩ => exact (D16.lhsIdx_val_of_single rfl _ _).trans hk)
  have er : D16.rhsIdx (ix2 p q) ((contrEquiv1 D16 16 rfl rfl).symm k) = ix2 k q := funext fun a => Fin.ext (by
    match a with
    | ⟨0, _⟩ => exact (D16.rhsIdx_val_of_single rfl _ _).trans hk
    | ⟨1, _⟩ => exact rhs_col _ _)
  rw [el, er]

/-! ## The body's stored value at an entry of its block -/

/-- The block of logits, from the five loaded blocks. -/
def logits (x0 x1 : Vec Ideal S5000x16 .f32) (x2 x3 : Vec Ideal S16x16 .f32) (x4 : Vec Ideal S1x16 .f32) : FVec Ideal S5000x16 .f32 :=
  addf (addf
      (matmul D16 none (truncf .bf16 (shapeCast S5000x16 x0 Facts₀.shapeCasts_S5000x16_S5000x16) Facts₀.bitsLt_bf16_f32) (truncf .bf16 x2 Facts₀.bitsLt_bf16_f32) (constant S5000x16 .f32 0x00000000#32))
      (matmul D16 none (truncf .bf16 (shapeCast S5000x16 x1 Facts₀.shapeCasts_S5000x16_S5000x16) Facts₀.bitsLt_bf16_f32) (truncf .bf16 x3 Facts₀.bitsLt_bf16_f32) (constant S5000x16 .f32 0x00000000#32)))
    (broadcastTo S5000x16 (shapeCast S1x16 x4 Facts₀.shapeCasts_S1x16_S1x16) Facts₀.broadcasts_S1x16_S5000x16)

/-- The logits at `(p, c)`: the layer before its activation, the bias read off the one row of its block. -/
theorem logits_at (x0 x1 : Vec Ideal S5000x16 .f32) (x2 x3 : Vec Ideal S16x16 .f32) (x4 : Vec Ideal S1x16 .f32)
    (p : Fin 5000) (c : Fin 16) :
    logits x0 x1 x2 x3 x4 (ix2 p c) = convAt (n := 5000) (d := 16) (h := 16) x0 x1 x2 x3 (fun j => x4 (ix2 (0 : Fin 1) j)) p c := by
  unfold logits
  show (matmul (F := Ideal) D16 none _ _ _ (ix2 p c) + matmul (F := Ideal) D16 none _ _ _ (ix2 p c)) + broadcastTo S5000x16 _ _ (ix2 p c) = _
  rw [matmul_at, matmul_at, broadcastTo_1b_ab_apply, shapeCast_self, shapeCast_self, shapeCast_self]
  rfl

/-- The logits shifted by their row maxima. -/
def shifted (o : FVec Ideal S5000x16 .f32) : FVec Ideal S5000x16 .f32 :=
  subf o (broadcastTo S5000x16 (shapeCast S5000x1
    (multiReduction (F := Ideal) .maximumf [1] S5000 o 0xFF800000#32 Facts₀.reduces_S5000x16_S5000 (.inl rfl) rfl) Facts₀.shapeCasts_S5000_S5000x1) Facts₀.broadcasts_S5000x1_S5000x16)

/-- The body's tail: from the logits to the logarithm of their softmax. -/
def tail (o : FVec Ideal S5000x16 .f32) : FVec Ideal S5000x16 .f32 :=
  subf (shifted o) (broadcastTo S5000x16 (log (shapeCast S5000x1
    (multiReduction (F := Ideal) .add [1] S5000 (exp (shifted o)) 0x00000000#32 Facts₀.reduces_S5000x16_S5000 (.inl rfl) rfl) Facts₀.shapeCasts_S5000_S5000x1)) Facts₀.broadcasts_S5000x1_S5000x16)

/-- The stored value is the tail of the logits. -/
theorem pay_eq (x0 x1 : Vec Ideal S5000x16 .f32) (x2 x3 : Vec Ideal S16x16 .f32) (x4 : Vec Ideal S1x16 .f32) :
    k1_pay1 x0 x1 x2 x3 x4 = tail (logits x0 x1 x2 x3 x4) := rfl

/-- A shifted entry: the logit minus its row's maximum. -/
theorem shifted_at (o : FVec Ideal S5000x16 .f32) (p : Fin 5000) (c : Fin 16) :
    shifted o (ix2 p c) = o (ix2 p c) - rowMax startW (fun c => o (ix2 p c)) := by
  unfold shifted
  show o (ix2 p c) - broadcastTo S5000x16 _ _ (ix2 p c) = _
  rw [Cert.LibKeepdims.broadcastTo_a1_ab_apply, Cert.LibKeepdims.shapeCast_a_a1_apply]
  exact congrArg (o (ix2 p c) - ·)
    (Cert.LibRowMax.multiReduction_maximumf_rows o 0xFF800000#32 Facts₀.reduces_S5000x16_S5000 (.inl rfl) rfl p)

/-- The tail at `(p, q)`: the logarithm of the softmax of row `p` of the logits, at column `q`. -/
theorem tail_at (o : FVec Ideal S5000x16 .f32) (p : Fin 5000) (q : Fin 16) :
    tail o (ix2 p q) = logSoftmaxRow startW (fun c => o (ix2 p c)) q := by
  unfold tail
  show shifted o (ix2 p q) - broadcastTo S5000x16 _ _ (ix2 p q) = _
  rw [Cert.LibKeepdims.broadcastTo_a1_ab_apply]
  show shifted o (ix2 p q) - Ideal.log (shapeCast S5000x1 _ _ (ix2 p (0 : Fin 1))) = _
  rw [Cert.LibKeepdims.shapeCast_a_a1_apply]
  refine (congrArg (fun s => shifted o (ix2 p q) - Ideal.log s)
    (Cert.LibKeepdims.multiReduction_add_rows (exp (shifted o)) 0x00000000#32 Facts₀.reduces_S5000x16_S5000 (.inl rfl) rfl p)).trans ?_
  rw [shifted_at]
  unfold logSoftmaxRow
  refine congrArg (fun s => _ - Ideal.log s) (Finset.sum_congr rfl fun c _ => ?_)
  show Ideal.exp (shifted o (ix2 p c)) = _
  rw [shifted_at]

/-- The stored value at `(p, q)`. -/
theorem pay_at (x0 x1 : Vec Ideal S5000x16 .f32) (x2 x3 : Vec Ideal S16x16 .f32) (x4 : Vec Ideal S1x16 .f32)
    (p : Fin 5000) (q : Fin 16) :
    k1_pay1 x0 x1 x2 x3 x4 (ix2 p q)
      = logSoftmaxRow startW (convAt (n := 5000) (d := 16) (h := 16) x0 x1 x2 x3 (fun j => x4 (ix2 (0 : Fin 1) j)) p) q := by
  rw [pay_eq, tail_at]
  exact congrArg (logSoftmaxRow startW · q) (funext fun c => logits_at x0 x1 x2 x3 x4 p c)

/-! ## The blocks, read off the arrays as the region finds them -/

section Region
variable (V : (c : Dev nD) → (b : Ref sig .tc) → Buf (Elt Ideal) ((c : Thread nD τ).loc b))

/-- The printed index maps over the grid: the two row-tiled inputs and the output are at block row `t`, column 0; the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(p, k)` of point `t`'s block of the neighbour sums is entry `(5000 t + p, k)` of the array. -/
theorem blk_agg (c : Dev nD) (t : Fin cfg1.N) (p : Fin 5000) (k : Fin 16) (r : Fin 100000) (hr : r.val = 5000 * t.val + p.val) :
    (iblk1 V c 0 t : Vec Ideal S5000x16 .f32) (ix2 p k) = (V c main_v25 : S100000x16.Idx → EReal) (ix2 r k) := by
  obtain ⟨e0, e1, -⟩ := idx_facts t
  unfold iblk1
  rw [View.read_apply]
  show V c main_v25 _ = V c main_v25 _
  congr 1
  funext a
  apply Fin.ext
  match a with
  | ⟨0, _⟩ => show win1_0.index t 0 * 5000 + 1 * p.val = r.val; rw [e0, hr]; omega
  | ⟨1, _⟩ => show win1_0.index t 1 * 16 + 1 * k.val = k.val; rw [e1]; omega

/-- The same for the hidden features. -/
theorem blk_h (c : Dev nD) (t : Fin cfg1.N) (p : Fin 5000) (k : Fin 16) (r : Fin 100000) (hr : r.val = 5000 * t.val + p.val) :
    (iblk1 V c 1 t : Vec Ideal S5000x16 .f32) (ix2 p k) = (V c main_v15 : S100000x16.Idx → EReal) (ix2 r k) := by
  obtain ⟨-, -, e0, e1, -⟩ := idx_facts t
  unfold iblk1
  rw [View.read_apply]
  show V c main_v15 _ = V c main_v15 _
  congr 1
  funext a
  apply Fin.ext
  match a with
  | ⟨0, _⟩ => show win1_1.index t 0 * 5000 + 1 * p.val = r.val; rw [e0, hr]; omega
  | ⟨1, _⟩ => show win1_1.index t 1 * 16 + 1 * k.val = k.val; rw [e1]; omega

/-- The block of `W_rel` is the whole matrix. -/
theorem blk_wr (c : Dev nD) (t : Fin cfg1.N) (k : Fin 16) (q : Fin 16) :
    (iblk1 V c 2 t : Vec Ideal S16x16 .f32) (ix2 k q) = (V c main_arg5 : S16x16.Idx → EReal) (ix2 k q) := by
  obtain ⟨-, -, -, -, e0, e1, -⟩ := idx_facts t
  unfold iblk1
  rw [View.read_apply]
  show V c main_arg5 _ = V c main_arg5 _
  congr 1
  funext a
  apply Fin.ext
  match a with
  | ⟨0, _⟩ => show win1_2.index t 0 * 16 + 1 * k.val = k.val; rw [e0]; omega
  | ⟨1, _⟩ => show win1_2.index t 1 * 16 + 1 * q.val = q.val; rw [e1]; omega

/-- The block of `W_root` is the whole matrix. -/
theorem blk_wo (c : Dev nD) (t : Fin cfg1.N) (k : Fin 16) (q : Fin 16) :
    (iblk1 V c 3 t : Vec Ideal S16x16 .f32) (ix2 k q) = (V c main_arg6 : S16x16.Idx → EReal) (ix2 k q) := by
  obtain ⟨-, -, -, -, -, -, e0, e1, -⟩ := idx_facts t
  unfold iblk1
  rw [View.read_apply]
  show V c main_arg6 _ = V c main_arg6 _
  congr 1
  funext a
  apply Fin.ext
  match a with
  | ⟨0, _⟩ => show win1_3.index t 0 * 16 + 1 * k.val = k.val; rw [e0]; omega
  | ⟨1, _⟩ => show win1_3.index t 1 * 16 + 1 * q.val = q.val; rw [e1]; omega

/-- The block of the bias row is the whole row. -/
theorem blk_b (c : Dev nD) (t : Fin cfg1.N) (q : Fin 16) :
    (iblk1 V c 4 t : Vec Ideal S1x16 .f32) (ix2 (0 : Fin 1) q) = (V c main_v26 : S1x16.Idx → EReal) (ix2 (0 : Fin 1) q) := by
  obtain ⟨-, -, -, -, -, -, -, -, e0, e1, -⟩ := idx_facts t
  unfold iblk1
  rw [View.read_apply]
  show V c main_v26 _ = V c main_v26 _
  congr 1
  funext a
  apply Fin.ext
  match a with
  | ⟨0, _⟩ => show win1_4.index t 0 * 1 + 1 * 0 = 0; rw [e0]
  | ⟨1, _⟩ => show win1_4.index t 1 * 16 + 1 * q.val = q.val; rw [e1]; omega

/-- The second layer of the arrays as the region finds them. -/
abbrev layer (c : Dev nD) : Arr 100000 16 :=
  output startW (V c main_v25 : S100000x16.Idx → EReal) (V c main_v15 : S100000x16.Idx → EReal)
    (V c main_arg5 : S16x16.Idx → EReal) (V c main_arg6 : S16x16.Idx → EReal) (fun j => (V c main_v26 : S1x16.Idx → EReal) (ix2 (0 : Fin 1) j))

/-- WHAT POINT `t` WRITES BACK is rows `5000 t …` of the second layer. -/
theorem flushed_eq (c : Dev nD) (t : Fin cfg1.N) :
    (dat1 V c).flushed 5 t = ((cfg1.win 5).blk t).view.read (Elt Ideal) (layer V c) := by
  have hN : cfg1.N = 20 := N_1
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x16) hz, View.ld_unit_zero (S := S16x16) hz, View.ld_unit_zero (S := S1x16) hz]
  funext y
  obtain ⟨p, q, rfl⟩ : ∃ (p : Fin 5000) (q : Fin 16), y = ix2 p q := ⟨y 0, y 1, eq_ix2 y⟩
  have ht : t.val < 20 := hN ▸ t.isLt
  have hp : p.val < 5000 := p.isLt
  let r : Fin 100000 := ⟨5000 * t.val + p.val, by omega⟩
  have hemb : ((cfg1.win 5).blk t).view.emb (ix2 p q) = ix2 r q := funext fun a => Fin.ext (by
    match a with
    | ⟨0, _⟩ => show win1_5.index t 0 * 5000 + 1 * p.val = 5000 * t.val + p.val; rw [e0]; omega
    | ⟨1, _⟩ => show win1_5.index t 1 * 16 + 1 * q.val = q.val; rw [e1]; omega)
  rw [View.read_apply]
  show k1_pay1 (iblk1 V c 0 t) (iblk1 V c 1 t) (iblk1 V c 2 t) (iblk1 V c 3 t) (iblk1 V c 4 t) (ix2 p q) = layer V c (((cfg1.win 5).blk t).view.emb (ix2 p q))
  refine (pay_at (iblk1 V c 0 t) (iblk1 V c 1 t) (iblk1 V c 2 t) (iblk1 V c 3 t) (iblk1 V c 4 t) p q).trans ?_
  refine Eq.trans ?_ (congrArg (layer V c) hemb).symm
  show logSoftmaxRow startW _ q = logSoftmaxRow startW (convAt _ _ _ _ _ r) q
  refine congrArg (logSoftmaxRow startW · q) (funext fun j => ?_)
  unfold convAt
  refine congrArg₂ (· + ·) (congrArg₂ (· + ·) (Finset.sum_congr rfl fun k _ => ?_) (Finset.sum_congr rfl fun k _ => ?_)) ?_
  · exact congrArg₂ (· * ·) (blk_agg V c t p k r rfl) (blk_wr V c t k j)
  · exact congrArg₂ (· * ·) (blk_h V c t p k r rfl) (blk_wo V c t k j)
  · exact blk_b V c t j

/-- An index of the array is in point `t`'s block iff its row is among the block's 5000 rows. -/
theorem mem_blk (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v27).slice (win1_5.rect t)).set ↔ _
  rw [View.set_slice_whole, Rect.mem_set_unit]
  exact Iff.rfl

/-- Row `r` is in the block of point `r / 5000`: the twenty blocks tile the array. -/
theorem cover (i : S100000x16.Idx) : ∃ t : Fin cfg1.N, (cfg1.win 5).flush t = true ∧ i ∈ ((cfg1.win 5).blk t).view.set := by
  have hN : cfg1.N = 20 := N_1
  have h0 : (i 0).val < 100000 := (i 0).isLt
  have h1 : (i 1).val < 16 := (i 1).isLt
  let t : Fin cfg1.N := ⟨(i 0).val / 5000, by rw [hN]; omega⟩
  obtain ⟨-, -, -, -, -, -, -, -, -, -, e0, e1⟩ := idx_facts t
  refine ⟨t, flush1_5 t, ?_⟩
  rw [mem_blk]
  intro a
  match a with
  | ⟨0, _⟩ =>
    show win1_5.index t 0 * 5000 ≤ (i 0).val ∧ (i 0).val < win1_5.index t 0 * 5000 + 5000
    rw [e0]; show (i 0).val / 5000 * 5000 ≤ (i 0).val ∧ (i 0).val < (i 0).val / 5000 * 5000 + 5000; omega
  | ⟨1, _⟩ =>
    show win1_5.index t 1 * 16 ≤ (i 1).val ∧ (i 1).val < win1_5.index t 1 * 16 + 16
    rw [e1]; omega

/-- THE RESULT ARRAY after the region: the second layer of the arrays as the region finds them. -/
theorem final (c : Dev nD) : (dat1 V c).arrAt 5 cfg1.N = layer V c :=
  (dat1 V c).arrAt_eq_of_cover 5 (layer V c) (fun t _ => flushed_eq V c t) cover

end Region

end Cert.KernelIdeal.Layer2

end
-- ==== Proof.RefValue.lean ====
/-
  The reference's two layers, entry by entry.

  Read one operation at a time at an index `(r, j)`, the reference's clamped pre-activation is the first layer of the
  specification: the two `dot_general`s are the sums over `k`, the bias is broadcast along the rows, the clamp is the
  maximum with the zero array.  Its logits are the second layer before the activation, and the outlined `log_softmax`
  is the specification's row-wise formula: the row maximum is a host reduction from −∞ compared once more with −∞
  (which changes nothing: a fold of `max` is above its starting value), the row sum is a host sum from zero, and the
  host's `exp` and `log` are the extended reals' own.
-/
import proofs.«146280_j46265387712704_1_alg».proof.Proof.ReadP
import proofs.«146280_j46265387712704_1_alg».proof.Proof.Spec
import proofs.«146280_j46265387712704_1_alg».proof.Proof.LibRowMax
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Cert.GraphConv
open Idealize.ShloMosaic Idealize.ShloMosaic.ValueIdx

/-- The value of the zero word, at which the first layer is clamped. -/
abbrev zeroW : EReal := Ideal.ofBits .f32 0x00000000#32
/-- The value of the word the row maxima start from. -/
abbrev startW : EReal := Ideal.ofBits .f32 0xFF800000#32

variable (x0 : (⟨S100000x128, .f32⟩ : BufTy).Contents (Elt Ideal)) (x1 : (⟨S2x1600000, .i32⟩ : BufTy).Contents (Elt Ideal))
  (x2 x3 : (⟨S128x16, .f32⟩ : BufTy).Contents (Elt Ideal)) (x4 : (⟨S16, .f32⟩ : BufTy).Contents (Elt Ideal))
  (x5 x6 : (⟨S16x16, .f32⟩ : BufTy).Contents (Elt Ideal)) (x7 : (⟨S16, .f32⟩ : BufTy).Contents (Elt Ideal))

/-! ## The first layer -/

/-- The hidden features are the first layer of the neighbour sums and the node features. -/
theorem hidden_eq :
    val_main_v20 (F := Ideal) x0 x1 x2 x3 x4
      = hidden zeroW (val_main_v13 (F := Ideal) x0 x1) x0 x2 x3 (fun j => x4 (ix1 j)) := by
  funext i
  obtain ⟨r, j, rfl⟩ : ∃ (r : Fin 100000) (j : Fin 16), i = ix2 r j := ⟨i 0, i 1, eq_ix2 i⟩
  rw [val_main_v20_apply, val_main_v19_apply, val_main_v16_apply, val_main_v14_apply, val_main_v15_apply, val_main_v18_apply,
    val_main_v17_apply, val_main_call0_v0_apply, val_main_call0_cst_apply]
  have hl14 : ∀ k, lidx_main_v14 (ix2 r j) k = ix2 r k := fun k => funext fun a => Fin.ext (by match a with | ⟨0, _⟩ => rfl | ⟨1, _⟩ => rfl)
  have hr14 : ∀ k, ridx_main_v14 (ix2 r j) k = ix2 k j := fun k => funext fun a => Fin.ext (by match a with | ⟨0, _⟩ => rfl | ⟨1, _⟩ => rfl)
  have hl15 : ∀ k, lidx_main_v15 (ix2 r j) k = ix2 r k := fun k => funext fun a => Fin.ext (by match a with | ⟨0, _⟩ => rfl | ⟨1, _⟩ => rfl)
  have hr15 : ∀ k, ridx_main_v15 (ix2 r j) k = ix2 k j := fun k => funext fun a => Fin.ext (by match a with | ⟨0, _⟩ => rfl | ⟨1, _⟩ => rfl)
  have hb : idx_main_v17 (idx_main_v18 (ix2 r j)) = ix1 j := funext fun a => Fin.ext (by match a with | ⟨0, _⟩ => rfl)
  simp only [hl14, hr14, hl15, hr15, hb]
  rfl

/-! ## The second layer -/

/-- The logits at `(r, c)`: the second layer before its activation. -/
theorem logit_at (r : Fin 100000) (c : Fin 16) :
    val_main_v36 (F := Ideal) x0 x1 x2 x3 x4 x5 x6 x7 (ix2 r c)
      = convAt (val_main_v30 (F := Ideal) x0 x1 x2 x3 x4) (val_main_v20 (F := Ideal) x0 x1 x2 x3 x4) x5 x6 (fun j => x7 (ix1 j)) r c := by
  rw [val_main_v36_apply, val_main_v33_apply, val_main_v31_apply, val_main_v32_apply, val_main_v35_apply, val_main_v34_apply]
  have hl31 : ∀ k, lidx_main_v31 (ix2 r c) k = ix2 r k := fun k => funext fun a => Fin.ext (by match a with | ⟨0, _⟩ => rfl | ⟨1, _⟩ => rfl)
  have hr31 : ∀ k, ridx_main_v31 (ix2 r c) k = ix2 k c := fun k => funext fun a => Fin.ext (by match a with | ⟨0, _⟩ => rfl | ⟨1, _⟩ => rfl)
  have hl32 : ∀ k, lidx_main_v32 (ix2 r c) k = ix2 r k := fun k => funext fun a => Fin.ext (by match a with | ⟨0, _⟩ => rfl | ⟨1, _⟩ => rfl)
  have hr32 : ∀ k, ridx_main_v32 (ix2 r c) k = ix2 k c := fun k => funext fun a => Fin.ext (by match a with | ⟨0, _⟩ => rfl | ⟨1, _⟩ => rfl)
  have hb : idx_main_v34 (idx_main_v35 (ix2 r c)) = ix1 c := funext fun a => Fin.ext (by match a with | ⟨0, _⟩ => rfl)
  simp only [hl31, hr31, hl32, hr32, hb]
  rfl

/-- The row maximum the reference shifts by: the fold of `max` over row `r` of the logits. -/
theorem rowmax_at (r : Fin 100000) :
    val_main_call1_v2 (F := Ideal) x0 x1 x2 x3 x4 x5 x6 x7 (ix1 r)
      = rowMax startW (fun c => val_main_v36 (F := Ideal) x0 x1 x2 x3 x4 x5 x6 x7 (ix2 r c)) := by
  rw [val_main_call1_v2_apply, val_main_call1_v1_apply, val_main_call1_cst_0_apply]
  unfold val_main_call1_v0
  rw [Cert.LibRowMax.hostReduce_maximumf_rows (val_main_v36 (F := Ideal) x0 x1 x2 x3 x4 x5 x6 x7) (val_main_call1_cst (F := Ideal))
    reducesTo_S100000x16_S100000_d1 (by decide) h_S_ r]
  exact max_start_rowMax startW _

/-- A shifted logit. -/
theorem shift_at (r : Fin 100000) (c : Fin 16) :
    val_main_call1_v5 (F := Ideal) x0 x1 x2 x3 x4 x5 x6 x7 (ix2 r c)
      = val_main_v36 (F := Ideal) x0 x1 x2 x3 x4 x5 x6 x7 (ix2 r c) - rowMax startW (fun c => val_main_v36 (F := Ideal) x0 x1 x2 x3 x4 x5 x6 x7 (ix2 r c)) := by
  rw [val_main_call1_v5_apply, val_main_call1_v4_apply, val_main_call1_v3_apply]
  have hi : idx_main_call1_v3 (idx_main_call1_v4 (ix2 r c)) = ix1 r := funext fun a => Fin.ext (by match a with | ⟨0, _⟩ => rfl)
  rw [hi, rowmax_at]
  rfl

/-- The result at `(r, j)`: the logarithm of the softmax of row `r` of the logits. -/
theorem result_at (r : Fin 100000) (j : Fin 16) :
    val_main_v37 (F := Ideal) x0 x1 x2 x3 x4 x5 x6 x7 (ix2 r j)
      = logSoftmaxRow startW (fun c => val_main_v36 (F := Ideal) x0 x1 x2 x3 x4 x5 x6 x7 (ix2 r c)) j := by
  have h10 : idx_main_call1_v8 (idx_main_call1_v10 (ix2 r j)) = ix1 r := funext fun a => Fin.ext (by match a with | ⟨0, _⟩ => rfl)
  rw [val_main_v37_apply, val_main_call1_v10_apply, val_main_call1_v9_apply, val_main_call1_v8_apply, h10, val_main_call1_v7_apply, shift_at]
  have hzero : (val_main_call1_cst_1 (F := Ideal)) (Shape.Idx.first h_S_) = 0 := Ideal.ofBits_zero_f32
  rw [hzero, zero_add, Ideal.subf_def, Ideal.hostUnary_log_def]
  have hs : (∑ k : Fin 16, val_main_call1_v6 (F := Ideal) x0 x1 x2 x3 x4 x5 x6 x7 (idx_main_call1_v7 (ix1 r) k))
      = ∑ k : Fin 16, Ideal.exp (val_main_v36 (F := Ideal) x0 x1 x2 x3 x4 x5 x6 x7 (ix2 r k)
          - rowMax startW (fun c => val_main_v36 (F := Ideal) x0 x1 x2 x3 x4 x5 x6 x7 (ix2 r c))) :=
    Finset.sum_congr rfl fun k _ => by
      have h7 : idx_main_call1_v7 (ix1 r) k = ix2 r k := funext fun a => Fin.ext (by match a with | ⟨0, _⟩ => rfl | ⟨1, _⟩ => rfl)
      rw [h7, val_main_call1_v6_apply, shift_at, Ideal.hostUnary_exp_def]
  rw [hs]
  rfl

/-- The result is the second layer of the neighbour sums of the hidden features and the hidden features. -/
theorem output_eq :
    val_main_v37 (F := Ideal) x0 x1 x2 x3 x4 x5 x6 x7
      = output startW (val_main_v30 (F := Ideal) x0 x1 x2 x3 x4) (val_main_v20 (F := Ideal) x0 x1 x2 x3 x4) x5 x6 (fun j => x7 (ix1 j)) := by
  funext i
  obtain ⟨r, j, rfl⟩ : ∃ (r : Fin 100000) (j : Fin 16), i = ix2 r j := ⟨i 0, i 1, eq_ix2 i⟩
  rw [result_at, output_ix2]
  exact congrArg (logSoftmaxRow startW · j) (funext fun c => logit_at x0 x1 x2 x3 x4 x5 x6 x7 r c)

end Cert.ReferenceIdeal.RefValue

end
-- ==== Proof.Bridge.lean ====
/-
  The kernel's result is the reference's.

  Followed back from the result buffer: the second region leaves the second layer of the arrays it finds; those are
  the neighbour sums of the hidden features (the second host stretch's gather and scatter-add, applied to the first
  region's output and the two index vectors the first stretch sliced from the edge list), the hidden features
  themselves, and the second layer's weights and bias; the first region leaves the first layer of the arrays IT finds,
  which are the neighbour sums of the node features (the first stretch's gather and scatter-add), the node features,
  and the first layer's weights and bias.  The reference applies the same host operations to the same values, so each
  array the kernel's regions find is the reference's stage of the same name, and the two layers are one function.
-/
import proofs.«146280_j46265387712704_1_alg».proof.Proof.KernelRun
import proofs.«146280_j46265387712704_1_alg».proof.Proof.Layer1
import proofs.«146280_j46265387712704_1_alg».proof.Proof.Layer2
import proofs.«146280_j46265387712704_1_alg».proof.Proof.RefRun
import proofs.«146280_j46265387712704_1_alg».proof.Proof.RefValue
import Idealize.ShloMosaic.Lib.ValueLayout

noncomputable section

namespace Cert.KernelIdeal.Bridge

open Cert.KernelIdeal Cert.KernelIdeal.Gen Cert.GraphConv
open Idealize.ShloMosaic Idealize.ShloMosaic.TcCoe Idealize.SL.Sem Idealize.ShloMosaic.ValueIdx Idealize.ShloMosaic.StableHlo
open Cert.ReferenceIdeal.ReadP (val_main_v1 val_main_v3 val_main_v13 val_main_v20 val_main_v30 val_main_v37)

variable (m : (ℓ : Loc nD τ sig) → Buf (Elt Ideal) ℓ) (ρ : Dev nD → PrngReg) (c : Dev nD)

/-! ## After the first host stretch -/

theorem w1_arg0 : W1 m ρ c (Proc.devRef .tc main_arg0) = (m ((c : Thread nD τ).loc main_arg0)) := by
  show after hostOps0 (W0 m ρ c) (Proc.devRef .tc main_arg0) = _
  after_results_simp <;> rfl
theorem w1_arg2 : W1 m ρ c (Proc.devRef .tc main_arg2) = (m ((c : Thread nD τ).loc main_arg2)) := by
  show after hostOps0 (W0 m ρ c) (Proc.devRef .tc main_arg2) = _
  after_results_simp <;> rfl
theorem w1_arg3 : W1 m ρ c (Proc.devRef .tc main_arg3) = (m ((c : Thread nD τ).loc main_arg3)) := by
  show after hostOps0 (W0 m ρ c) (Proc.devRef .tc main_arg3) = _
  after_results_simp <;> rfl
theorem w1_arg5 : W1 m ρ c (Proc.devRef .tc main_arg5) = (m ((c : Thread nD τ).loc main_arg5)) := by
  show after hostOps0 (W0 m ρ c) (Proc.devRef .tc main_arg5) = _
  after_results_simp <;> rfl
theorem w1_arg6 : W1 m ρ c (Proc.devRef .tc main_arg6) = (m ((c : Thread nD τ).loc main_arg6)) := by
  show after hostOps0 (W0 m ρ c) (Proc.devRef .tc main_arg6) = _
  after_results_simp <;> rfl
theorem w1_arg7 : W1 m ρ c (Proc.devRef .tc main_arg7) = (m ((c : Thread nD τ).loc main_arg7)) := by
  show after hostOps0 (W0 m ρ c) (Proc.devRef .tc main_arg7) = _
  after_results_simp <;> rfl

/-- The source index vector: row 0 of the edge list. -/
theorem w1_src : W1 m ρ c (Proc.devRef .tc main_v1) = val_main_v1 (F := Ideal) (m ((c : Thread nD τ).loc main_arg1)) := by
  show after hostOps0 (W0 m ρ c) (Proc.devRef .tc main_v1) = _
  after_results_simp <;> rfl
/-- The destination index vector: row 1 of the edge list. -/
theorem w1_dst : W1 m ρ c (Proc.devRef .tc main_v3) = val_main_v3 (F := Ideal) (m ((c : Thread nD τ).loc main_arg1)) := by
  show after hostOps0 (W0 m ρ c) (Proc.devRef .tc main_v3) = _
  after_results_simp <;> rfl
/-- The neighbour sums of the node features. -/
theorem w1_agg : W1 m ρ c (Proc.devRef .tc main_v13) = val_main_v13 (F := Ideal) (m ((c : Thread nD τ).loc main_arg0)) (m ((c : Thread nD τ).loc main_arg1)) := by
  show after hostOps0 (W0 m ρ c) (Proc.devRef .tc main_v13) = _
  after_results_simp <;> rfl
/-- The first layer's bias as a row. -/
theorem w1_bias : W1 m ρ c (Proc.devRef .tc main_v14) = shapeCast S1x16 (m ((c : Thread nD τ).loc main_arg4)) Facts₀.shapeCasts_S16_S1x16 := by
  show after hostOps0 (W0 m ρ c) (Proc.devRef .tc main_v14) = _
  after_results_simp <;> rfl

/-! ## After the first region -/

/-- The hidden features the first region leaves are the reference's. -/
theorem w2_hidden : W2 m ρ c (Proc.devRef .tc main_v15) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Layer1.final (V1 m ρ) c).trans ?_)
  rw [Cert.ReferenceIdeal.RefValue.hidden_eq]
  show hidden Layer1.zeroW (W1 m ρ c (Proc.devRef .tc main_v13)) (W1 m ρ c (Proc.devRef .tc main_arg0)) (W1 m ρ c (Proc.devRef .tc main_arg2)) (W1 m ρ c (Proc.devRef .tc main_arg3))
      (fun j => (W1 m ρ c (Proc.devRef .tc main_v14) : S1x16.Idx → EReal) (ix2 (0 : Fin 1) j)) = _
  rw [w1_agg, w1_arg0, w1_arg2, w1_arg3, w1_bias]
  refine congrArg (hidden _ _ _ _ _) (funext fun j => ?_)
  exact shapeCast_a_1a_apply _ _ (0 : Fin 1) j

theorem w2_src : W2 m ρ c (Proc.devRef .tc main_v1) = val_main_v1 (F := Ideal) (m ((c : Thread nD τ).loc main_arg1)) :=
  (W2_of_ne m ρ c main_v1 (by decide)).trans (w1_src m ρ c)
theorem w2_dst : W2 m ρ c (Proc.devRef .tc main_v3) = val_main_v3 (F := Ideal) (m ((c : Thread nD τ).loc main_arg1)) :=
  (W2_of_ne m ρ c main_v3 (by decide)).trans (w1_dst m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-! ## After the second host stretch -/

theorem w3_hidden : W3 m ρ c (Proc.devRef .tc main_v15) = W2 m ρ c (Proc.devRef .tc main_v15) := by
  show after hostOps1 (W2 m ρ c) (Proc.devRef .tc main_v15) = _
  after_results_simp <;> rfl
theorem w3_arg5 : W3 m ρ c (Proc.devRef .tc main_arg5) = W2 m ρ c (Proc.devRef .tc main_arg5) := by
  show after hostOps1 (W2 m ρ c) (Proc.devRef .tc main_arg5) = _
  after_results_simp <;> rfl
theorem w3_arg6 : W3 m ρ c (Proc.devRef .tc main_arg6) = W2 m ρ c (Proc.devRef .tc main_arg6) := by
  show after hostOps1 (W2 m ρ c) (Proc.devRef .tc main_arg6) = _
  after_results_simp <;> rfl
/-- The neighbour sums of the hidden features, of what the second stretch finds. -/
theorem w3_agg : W3 m ρ c (Proc.devRef .tc main_v25)
    = Cert.ReferenceIdeal.RefRun.nbrSum16 (F := Ideal) (W2 m ρ c (Proc.devRef .tc main_v1)) (W2 m ρ c (Proc.devRef .tc main_v3)) (W2 m ρ c (Proc.devRef .tc main_v15)) := by
  show after hostOps1 (W2 m ρ c) (Proc.devRef .tc main_v25) = _
  after_results_simp <;> rfl
/-- The second layer's bias as a row. -/
theorem w3_bias : W3 m ρ c (Proc.devRef .tc main_v26) = shapeCast S1x16 (W2 m ρ c (Proc.devRef .tc main_arg7)) Facts₀.shapeCasts_S16_S1x16 := by
  show after hostOps1 (W2 m ρ c) (Proc.devRef .tc main_v26) = _
  after_results_simp <;> rfl

/-! ## After the second region -/

/-- THE RESULT BUFFER at the end of the kernel's run is the reference's last stage at the arguments. -/
theorem result_eq : W4 m ρ c (Proc.devRef .tc main_v27) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Layer2.final (V3 m ρ) c).trans ?_)
  rw [Cert.ReferenceIdeal.RefValue.output_eq, Cert.ReferenceIdeal.RefRun.nbr_stage]
  show output Layer2.startW (W3 m ρ c (Proc.devRef .tc main_v25)) (W3 m ρ c (Proc.devRef .tc main_v15)) (W3 m ρ c (Proc.devRef .tc main_arg5)) (W3 m ρ c (Proc.devRef .tc main_arg6))
      (fun j => (W3 m ρ c (Proc.devRef .tc main_v26) : S1x16.Idx → EReal) (ix2 (0 : Fin 1) j)) = _
  rw [w3_agg, w3_hidden, w3_arg5, w3_arg6, w3_bias, w2_src, w2_dst, w2_hidden, w2_arg5, w2_arg6, w2_arg7]
  refine congrArg (output _ _ _ _ _) (funext fun j => ?_)
  exact shapeCast_a_1a_apply _ _ (0 : Fin 1) j

end Cert.KernelIdeal.Bridge

end
-- ==== Proof.lean ====
/-
  A two-layer graph convolution with a log-softmax head: the kernel against its reference, over the extended reals.

  Both programs gather each edge's source row and add it into the edge's destination row (the neighbour sums), apply
  `agg · W_rel + x · W_root + b`, clamp at zero, do the same once more on the hidden features, and take the logarithm
  of the softmax along each row.  The kernel computes the two dense layers in two tiled regions of twenty row blocks
  each, from operands narrowed to a shorter float format; the reference computes them on whole arrays.  Over the
  extended reals a change of float format is the identity, a product into a zero accumulator is the plain sum of
  products, a lane reduction is the host's reduction, and the tiles cover each array, so the two results are one
  function of the arguments.  Nothing here needs the inputs to be finite: only zero plus a sum, and the maximum with a
  fold's own starting value, are used, and both hold on every extended real.

  The three frames: the kernel's and the idealized kernel's are the generated frames; the reference's is its run with
  the result dropped.  The idealization rewrote no operation, so there is nothing to preserve.
-/
import proofs.«146280_j46265387712704_1_alg».proof.Defs
import proofs.«146280_j46265387712704_1_alg».proof.Proof.Gen.Kernel
import proofs.«146280_j46265387712704_1_alg».proof.Proof.Gen.Kernel.Skeleton
import proofs.«146280_j46265387712704_1_alg».proof.Proof.Gen.Kernel.Launch
import proofs.«146280_j46265387712704_1_alg».proof.Proof.Gen.Kernel.Points
import proofs.«146280_j46265387712704_1_alg».proof.Proof.Gen.Kernel.Frame
import proofs.«146280_j46265387712704_1_alg».proof.Proof.Gen.KernelIdeal
import proofs.«146280_j46265387712704_1_alg».proof.Proof.Gen.KernelIdeal.Skeleton
import proofs.«146280_j46265387712704_1_alg».proof.Proof.Gen.KernelIdeal.Launch
import proofs.«146280_j46265387712704_1_alg».proof.Proof.Gen.KernelIdeal.Points
import proofs.«146280_j46265387712704_1_alg».proof.Proof.Gen.KernelIdeal.Frame
import proofs.«146280_j46265387712704_1_alg».proof.Proof.Gen.ReferenceIdeal
import proofs.«146280_j46265387712704_1_alg».proof.Proof.Gen.Pre_finite_inputs
import proofs.«146280_j46265387712704_1_alg».proof.Proof.KernelRun
import proofs.«146280_j46265387712704_1_alg».proof.Proof.RefRun
import proofs.«146280_j46265387712704_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs run; the kernel's result buffer ends at the second region's
    output array, the reference's at its last stage, and those are one function of the arguments. -/
theorem algebraic : Cert.algebraic_KernelIdeal_ReferenceIdeal := by
  intro m ρ m' ρ' _ hagree
  refine ⟨_, Cert.KernelIdeal.KRun.run_result (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
